-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x1x2048x2048 : S_.BroadcastsInDim S2x1x2048x2048 (![] : Fin 0 → Fin S2x1x2048x2048.rank)
  reducesTo_S2x1x2048x2048_S_d0_1_2_3 : S2x1x2048x2048.ReducesTo [0, 1, 2, 3] S_

variable [Facts]

def fn_part1 {F : FTy → Type} [FloatOps F] (main_v13 : IVec S_ 1) (main_v16 : IVec S2x1x2048x2048 1) : IVec S_ 1 :=
  let main_c_5 : IVec S_ 1 := constantI S_ 1 1#1
  let main_v17 : IVec S_ 1 := (fun x v => Host.reduce IntOp.andi x v reducesTo_S2x1x2048x2048_S_d0_1_2_3 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S2x1x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x1x2048x2048 .f32 := Host.absf main_arg3
  let main_cst_4 : FVec F S_ .f32 := constant S_ .f32 0x7F800000#32
  let main_v15 : FVec F S2x1x2048x2048 .f32 := broadcastInDim S2x1x2048x2048 ![] bcast_S_S2x1x2048x2048 main_cst_4
  let main_v16 : IVec S2x1x2048x2048 1 := cmpf .olt main_v14 main_v15
  fn_part1 (F := F) main_v13 main_v16
-- ==== Kernel.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .f32⟩
  | .hbm, ⟨4, _⟩ => ⟨S2x1x2048x2048, .bf16⟩
  | .hbm, ⟨5, _⟩ => ⟨S2x16x2048x64, .f32⟩
  | .hbm, ⟨6, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .bf16⟩
  | .local _ .vmem, ⟨7, _⟩ => ⟨S1x1x512x2048, .bf16⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bitsLt_bf16_f32 : FTy.bits .bf16 < FTy.bits .f32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x1x2048x2048.size a
  hwx0_3 : ∀ i : grid0.Coords, EltTy.bits .bf16 = 32 ∨ (Rect.block (s := S2x1x2048x2048) S1x1x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .f32⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S_, .f32⟩
  | .hbm, ⟨10, _⟩ => ⟨S2x1x2048x2048, .f32⟩
  | .hbm, ⟨11, _⟩ => ⟨S2x1x2048x2048, .f32⟩
  | .hbm, ⟨12, _⟩ => ⟨S2x16x2048x2048, .f32⟩
  | .hbm, ⟨13, _⟩ => ⟨S2x16x2048x2048, .f32⟩
  | .hbm, ⟨14, _⟩ => ⟨S_, .f32⟩
  | .hbm, ⟨15, _⟩ => ⟨S2x16x2048, .f32⟩
  | .hbm, ⟨16, _⟩ => ⟨S_, .f32⟩
  | .hbm, ⟨17, _⟩ => ⟨S2x16x2048, .f32⟩
  | .hbm, ⟨18, _⟩ => ⟨S2x16x2048, .f32⟩
  | .hbm, ⟨19, _⟩ => ⟨S2x16x2048x1, .f32⟩
  | .hbm, ⟨20, _⟩ => ⟨S2x16x2048x2048, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S2x16x2048x1, .f32⟩
  | .hbm, ⟨26, _⟩ => ⟨S2x16x2048x2048, .f32⟩
  | .hbm, ⟨27, _⟩ => ⟨S2x16x2048x2048, .f32⟩
  | .hbm, ⟨28, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Softmax.lean ====
/-
  Masked scaled-dot-product attention as ONE function of the four argument arrays, index by index.

  Everything is said first for ONE query row, over plain functions of the coordinates:
    a query row        qrow  : 64 features
    the key rows       krows : 2048 rows of 64 features
    the mask row       mrow  : 2048 entries
    the value rows     vrows : 2048 rows of 64 features
    logit(c)  = (sum over d of qrow[d] * krows[c][d]) * 0.125 + mrow[c] * (-1e9)
    peak      = the maximum of the logits, taken from minus infinity
    e(c)      = exp (logit(c) - peak)
    weight(c) = e(c) / (sum over c' of e(c'))
    out[d]    = sum over c of weight(c) * vrows[c][d]
  and then for the arrays: batch entry b, head h and query row r read q[b,h,r,:], k[b,h,:,:], mask[b,0,r,:] and
  v[b,h,:,:] — the mask has one head only, and every head reads it. All sums are finite sums on the extended
  reals, where addition is commutative and associative, so no order of summation is chosen here.
-/
import Idealize.ShloMosaic.PureOps.Ideal
import Idealize.ShloMosaic.Lib.ValueIdx

noncomputable section

open scoped BigOperators

namespace Cert.Attention

open Idealize.ShloMosaic Idealize.ShloMosaic.ValueIdx

/-! ## One query row -/

/-- The largest of a row of 2048 numbers, from minus infinity. -/
def peakOf (f : Fin 2048 → EReal) : EReal :=
  (Finset.univ : Finset (Fin 2048)).fold max (Ideal.ofBits .f32 0xFF800000#32) f

/-- The exponential of an entry below the row's peak. -/
def expOf (f : Fin 2048 → EReal) (c : Fin 2048) : EReal := Ideal.exp (f c - peakOf f)

/-- The softmax of a row of 2048 numbers. -/
def softmaxOf (f : Fin 2048 → EReal) (c : Fin 2048) : EReal := Ideal.div (expOf f c) (∑ c' : Fin 2048, expOf f c')

/-- The scaled query-key product plus the mask's penalty. -/
def logitOf (qrow : Fin 64 → EReal) (krows : Fin 2048 → Fin 64 → EReal) (mrow : Fin 2048 → EReal) (c : Fin 2048) : EReal :=
  (∑ d : Fin 64, qrow d * krows c d) * Ideal.ofBits .f32 0x3E000000#32 + mrow c * Ideal.ofBits .f32 0xCE6E6B28#32

/-- One attention weight: the softmax of the row's logits. -/
def weightOf (qrow : Fin 64 → EReal) (krows : Fin 2048 → Fin 64 → EReal) (mrow : Fin 2048 → EReal) (c : Fin 2048) : EReal :=
  softmaxOf (logitOf qrow krows mrow) c

/-- One attended feature: the weighted sum of that feature over the value rows. -/
def attendOf (qrow : Fin 64 → EReal) (krows : Fin 2048 → Fin 64 → EReal) (mrow : Fin 2048 → EReal)
    (vrows : Fin 2048 → Fin 64 → EReal) (d : Fin 64) : EReal :=
  ∑ c : Fin 2048, weightOf qrow krows mrow c * vrows c d

/-! ## The arrays -/

/-- A query, key or value array: batch 2, heads 16, rows 2048, features 64. -/
abbrev Rows : Type := (⟨4, ![2, 16, 2048, 64]⟩ : Shape).Idx → EReal
/-- The mask: batch 2, ONE head, query rows 2048, key rows 2048. -/
abbrev Mask : Type := (⟨4, ![2, 1, 2048, 2048]⟩ : Shape).Idx → EReal
/-- The attention weights: batch 2, heads 16, query rows 2048, key rows 2048. -/
abbrev Weights : Type := (⟨4, ![2, 16, 2048, 2048]⟩ : Shape).Idx → EReal

/-- Row r of head h of batch entry b. -/
def rowOf (x : Rows) (b : Fin 2) (h : Fin 16) (r : Fin 2048) : Fin 64 → EReal := fun d => x (ix4 b h r d)
/-- All rows of head h of batch entry b. -/
def rowsOf (x : Rows) (b : Fin 2) (h : Fin 16) : Fin 2048 → Fin 64 → EReal := fun r d => x (ix4 b h r d)
/-- The mask's row for query row r of batch entry b (its one head). -/
def maskRowOf (mk : Mask) (b : Fin 2) (r : Fin 2048) : Fin 2048 → EReal := fun c => mk (ix4 b (0 : Fin 1) r c)

/-- THE WEIGHTS ARRAY. -/
def weights (q k : Rows) (mk : Mask) : Weights := fun i =>
  weightOf (rowOf q (i 0) (i 1) (i 2)) (rowsOf k (i 0) (i 1)) (maskRowOf mk (i 0) (i 2)) (i 3)

/-- THE ATTENDED VALUES ARRAY: each query row's weighted sum of the value rows. -/
def attended (q k : Rows) (mk : Mask) (v : Rows) : Rows := fun i =>
  attendOf (rowOf q (i 0) (i 1) (i 2)) (rowsOf k (i 0) (i 1)) (maskRowOf mk (i 0) (i 2)) (rowsOf v (i 0) (i 1)) (i 3)

end Cert.Attention

end
-- ==== Proof.Consts.lean ====
/-
  The two float constants that differ between the two programs, and the one law that joins them.

  One program scales the query-key products by the constant 0.125; the other divides them by the square root of
  the constant 64. On the extended reals the square root of 64 is 8, and dividing by a non-zero real is
  multiplying by its reciprocal at EVERY extended real, the infinities included: so the two scalings are one
  function, with no finiteness asked of the operand.
-/
import Idealize.ShloMosaic.PureOps.Ideal

noncomputable section

namespace Cert.Attention

open Idealize.ShloMosaic

/-- The word 0x42800000 denotes the real 64. -/
theorem ofBits_sixtyfour : Ideal.ofBits .f32 0x42800000#32 = ((64 : ℝ) : EReal) := by
  simp [Ideal.ofBits, Ideal.ieee, -EReal.coe_mul]; norm_num

/-- The word 0x3E000000 denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_sixtyfour : Ideal.sqrt ((64 : ℝ) : EReal) = ((8 : ℝ) : EReal) := by
  rw [Ideal.sqrt_coe, if_neg (by norm_num)]
  have h : Real.sqrt 64 = 8 := by
    rw [show (64 : ℝ) = 8 * 8 by norm_num]
    exact Real.sqrt_mul_self (by norm_num)
  rw [h]

/-- THE SCALING LAW: dividing by the square root of the constant 64 is multiplying by the constant 0.125, at every
    extended real. -/
theorem div_sqrt_eq_mul (x : EReal) :
    Ideal.div x (Ideal.sqrt (Ideal.ofBits .f32 0x42800000#32)) = x * Ideal.ofBits .f32 0x3E000000#32 := by
  rw [ofBits_sixtyfour, sqrt_sixtyfour, ofBits_eighth, Ideal.div_coe (by norm_num : (8 : ℝ) ≠ 0)]

end Cert.Attention

end
-- ==== Proof.LibHostMaxRankFour.lean ====
/-
  The host's reduce with a maximum body over the LAST axis of a rank-4 array, read at an index written by its
  coordinates: the maximum, folded from the initial value, of the operand along that axis.
-/
import Idealize.ShloMosaic.PureOps.Ideal.Laws
import Idealize.ShloMosaic.Lib.ValueIdx

namespace Idealize.ShloMosaic.ValueIdx

open Idealize.ShloMosaic

variable {A B C D : ℕ}

/-- (a, b, c) with k put back on the last axis is (a, b, c, k). -/
theorem lift4_last (h : (⟨4, ![A, B, C, D]⟩ : Shape).Reduces [3] (⟨3, ![A, B, C]⟩ : Shape)) (a : Fin A) (b : Fin B) (c : Fin C)
    (k : Fin ((⟨4, ![A, B, C, D]⟩ : Shape).size 3)) : h.lift (ix3 a b c) k = ix4 a b c (⟨k.val, k.isLt⟩ : Fin D) := by
  funext x; apply Fin.ext
  fin_cases x <;> rfl

/-- A rank-4 array reduced by maximum over its last axis, at (a, b, c). -/
theorem hostReduceMax4_last (x : (⟨4, ![A, B, C, D]⟩ : Shape).Idx → EReal) (init : (⟨0, ![]⟩ : Shape).Idx → EReal)
    (h' : (⟨4, ![A, B, C, D]⟩ : Shape).ReducesTo [3] (⟨3, ![A, B, C]⟩ : Shape))
    (h : (⟨4, ![A, B, C, D]⟩ : Shape).Reduces [3] (⟨3, ![A, B, C]⟩ : Shape)) (hu : 0 < (⟨0, ![]⟩ : Shape).numel)
    (a : Fin A) (b : Fin B) (c : Fin C) :
    Host.reduce (FloatOps.maximumf (F := Ideal) (φ := .f32)) x init h' hu (ix3 a b c)
      = (Finset.univ : Finset (Fin D)).fold max (init (Shape.Idx.first hu)) fun k => x (ix4 a b c k) := by
  rw [Host.reduce_eq_fold_single _ x init h' h hu]
  exact congrArg (fun f : Fin D → EReal => (Finset.univ : Finset (Fin D)).fold max (init (Shape.Idx.first hu)) f)
    (funext fun k => congrArg x (lift4_last h a b c k))

end Idealize.ShloMosaic.ValueIdx
-- ==== Proof.ReferenceValue.lean ====
/-
  The reference program's two results as the attention specification.

  The reference program is read one operation at a time, each at an index written by its coordinates
  (batch entry b, head h, query row r, key row c or feature d):
    the scaled query-key products plus the mask's penalty are the row's logits;
    the maximum over the last axis, folded from minus infinity, is the row's peak, and taking the maximum with
      minus infinity once more changes nothing, because the fold already starts from that same value;
    the exponentials of the logits below the peak, their sum over the row, and the quotient are the softmax;
    the last contraction is the weighted sum of the value rows.
  Dividing by the square root of 64 is multiplying by 0.125 (the scaling law), and the sum's initial value is zero.
  No float constant is evaluated except in those two places: the same word on both sides stays a word.
-/
import proofs.«166812_j25975962206620_2_alg».proof.Proof.Gen.ReferenceIdeal.Read
import proofs.«166812_j25975962206620_2_alg».proof.Proof.Softmax
import proofs.«166812_j25975962206620_2_alg».proof.Proof.Consts
import proofs.«166812_j25975962206620_2_alg».proof.Proof.LibHostMaxRankFour

noncomputable section

open scoped BigOperators

namespace Cert.Attention.Reference

open Cert.ReferenceIdeal Cert.ReferenceIdeal.Gen Cert.ReferenceIdeal.Read Idealize.ShloMosaic Idealize.ShloMosaic.ValueIdx
open Cert.Attention

/-! ## The index functions of the layout operations and contractions, at coordinates -/

/-- The first contraction reads the query at (b, h, r, k). -/
theorem lidx_v0 (b : Fin 2) (h : Fin 16) (r c : Fin 2048) (k : Fin 64) :
    lidx_main_v0 (ix4 b h r c) k = ix4 b h r k := by
  funext a; apply Fin.ext
  match a with | ⟨0, _⟩ => rfl | ⟨1, _⟩ => rfl | ⟨2, _⟩ => rfl | ⟨3, _⟩ => rfl

/-- The first contraction reads the key at (b, h, c, k). -/
theorem ridx_v0 (b : Fin 2) (h : Fin 16) (r c : Fin 2048) (k : Fin 64) :
    ridx_main_v0 (ix4 b h r c) k = ix4 b h c k := by
  funext a; apply Fin.ext
  match a with | ⟨0, _⟩ => rfl | ⟨1, _⟩ => rfl | ⟨2, _⟩ => rfl | ⟨3, _⟩ => rfl

/-- Every head reads the mask's one head. -/
theorem idx_v6 (b : Fin 2) (h : Fin 16) (r c : Fin 2048) :
    idx_main_v6 (ix4 b h r c) = ix4 b (0 : Fin 1) r c := by
  funext a; apply Fin.ext
  match a with | ⟨0, _⟩ => rfl | ⟨1, _⟩ => rfl | ⟨2, _⟩ => rfl | ⟨3, _⟩ => rfl

/-! ## The logits -/

/-- The seventh operation's result at (b, h, r, c) is the row's logit at c. -/
theorem logits_apply (x0 x1 : Rows) (x3 : Mask) (b : Fin 2) (h : Fin 16) (r c : Fin 2048) :
    val_main_v7 (F := Ideal) x0 x1 x3 (ix4 b h r c)
      = logitOf (rowOf x0 b h r) (rowsOf x1 b h) (maskRowOf x3 b r) c := by
  rw [val_main_v7_apply, val_main_v3_apply, val_main_v0_apply, val_main_v2_apply, val_main_v1_apply, val_main_cst_apply,
    val_main_v6_apply, val_main_v5_apply, val_main_v4_apply, val_main_cst_0_apply]
  simp only [Ideal.addf_def, Ideal.hostDivf_def, Ideal.hostUnary_sqrt_def, Ideal.ofBits_def, Ideal.mulf_def]
  rw [div_sqrt_eq_mul, idx_v6]
  simp only [lidx_v0, ridx_v0]
  rfl

/-! ## The peak -/

/-- The maximum over the last axis at (b, h, r) is the row's peak: the fold of the maximum from minus infinity. -/
theorem rowmax_apply (x0 x1 : Rows) (x3 : Mask) (b : Fin 2) (h : Fin 16) (r : Fin 2048) :
    val_main_v8 (F := Ideal) x0 x1 x3 (ix3 b h r)
      = peakOf (logitOf (rowOf x0 b h r) (rowsOf x1 b h) (maskRowOf x3 b r)) := by
  unfold val_main_v8
  rw [hostReduceMax4_last _ _ reducesTo_S2x16x2048x2048_S2x16x2048_d3 (by decide) h_S_ b h r, val_main_cst_1_apply,
    Ideal.ofBits_def]
  unfold peakOf
  exact congrArg (fun f : Fin 2048 → EReal => (Finset.univ : Finset (Fin 2048)).fold max (Ideal.ofBits .f32 0xFF800000#32) f)
    (funext fun c => logits_apply x0 x1 x3 b h r c)

/-- Taking the maximum with minus infinity once more changes nothing: the fold already starts from that value,
    so it is at least that value. -/
theorem peak_apply (x0 x1 : Rows) (x3 : Mask) (b : Fin 2) (h : Fin 16) (r : Fin 2048) :
    val_main_v10 (F := Ideal) x0 x1 x3 (ix3 b h r)
      = peakOf (logitOf (rowOf x0 b h r) (rowsOf x1 b h) (maskRowOf x3 b r)) := by
  rw [val_main_v10_apply, val_main_v9_apply, val_main_cst_2_apply, rowmax_apply, Ideal.maximumf_def, Ideal.ofBits_def]
  exact max_eq_right ((Finset.le_fold_max _).mpr (Or.inl le_rfl))

/-! ## The exponentials, their sum and the weights -/

/-- The peak is broadcast back along the last axis: every key row of (b, h, r) reads the peak of (b, h, r). -/
theorem idx_v11_v12 (b : Fin 2) (h : Fin 16) (r c : Fin 2048) :
    idx_main_v11 (idx_main_v12 (ix4 b h r c)) = ix3 b h r := by
  funext a; apply Fin.ext
  match a with | ⟨0, _⟩ => rfl | ⟨1, _⟩ => rfl | ⟨2, _⟩ => rfl

/-- The fourteenth operation's result at (b, h, r, c) is the exponential of the logit below the row's peak. -/
theorem exps_apply (x0 x1 : Rows) (x3 : Mask) (b : Fin 2) (h : Fin 16) (r c : Fin 2048) :
    val_main_v14 (F := Ideal) x0 x1 x3 (ix4 b h r c)
      = expOf (logitOf (rowOf x0 b h r) (rowsOf x1 b h) (maskRowOf x3 b r)) c := by
  rw [val_main_v14_apply, val_main_v13_apply, val_main_v12_apply, val_main_v11_apply, idx_v11_v12, peak_apply, logits_apply,
    Ideal.hostUnary_exp_def, Ideal.subf_def]
  rfl

/-- The sum over the last axis at (b, h, r) reads the operand at (b, h, r, k). -/
theorem idx_v15 (b : Fin 2) (h : Fin 16) (r k : Fin 2048) :
    idx_main_v15 (ix3 b h r) k = ix4 b h r k := by
  funext a; apply Fin.ext
  match a with | ⟨0, _⟩ => rfl | ⟨1, _⟩ => rfl | ⟨2, _⟩ => rfl | ⟨3, _⟩ => rfl

/-- The sum over the last axis at (b, h, r) is the sum of the row's exponentials: its initial value is zero. -/
theorem expsum_apply (x0 x1 : Rows) (x3 : Mask) (b : Fin 2) (h : Fin 16) (r : Fin 2048) :
    val_main_v15 (F := Ideal) x0 x1 x3 (ix3 b h r)
      = ∑ c : Fin 2048, expOf (logitOf (rowOf x0 b h r) (rowsOf x1 b h) (maskRowOf x3 b r)) c := by
  rw [val_main_v15_apply, val_main_cst_3_apply, Ideal.ofBits_def, Ideal.ofBits_zero_f32, zero_add]
  exact Finset.sum_congr rfl fun c _ => by rw [idx_v15, exps_apply]

/-- The sum is broadcast back along the last axis. -/
theorem idx_v16_v17 (b : Fin 2) (h : Fin 16) (r c : Fin 2048) :
    idx_main_v16 (idx_main_v17 (ix4 b h r c)) = ix3 b h r := by
  funext a; apply Fin.ext
  match a with | ⟨0, _⟩ => rfl | ⟨1, _⟩ => rfl | ⟨2, _⟩ => rfl

/-- The eighteenth operation's result at (b, h, r, c) is the attention weight of key row c. -/
theorem weights_apply (x0 x1 : Rows) (x3 : Mask) (b : Fin 2) (h : Fin 16) (r c : Fin 2048) :
    val_main_v18 (F := Ideal) x0 x1 x3 (ix4 b h r c)
      = weightOf (rowOf x0 b h r) (rowsOf x1 b h) (maskRowOf x3 b r) c := by
  rw [val_main_v18_apply, val_main_v17_apply, val_main_v16_apply, idx_v16_v17, expsum_apply, exps_apply, Ideal.hostDivf_def]
  rfl

/-! ## The two results -/

/-- THE WEIGHTS: the reference program's eighteenth result is the weights array. -/
theorem weights_eq (x0 x1 : Rows) (x3 : Mask) :
    Cert.ReferenceIdeal.Read.val_main_v18 (F := Ideal) x0 x1 x3 = weights x0 x1 x3 := by
  funext i
  obtain ⟨b, h, r, c, rfl⟩ : ∃ b h r c, i = ix4 b h r c := ⟨_, _, _, _, eq_ix4 i⟩
  rw [weights_apply]
  rfl

/-- The last contraction reads the weights at (b, h, r, k). -/
theorem lidx_v19 (b : Fin 2) (h : Fin 16) (r : Fin 2048) (d : Fin 64) (k : Fin 2048) :
    lidx_main_v19 (ix4 b h r d) k = ix4 b h r k := by
  funext a; apply Fin.ext
  match a with | ⟨0, _⟩ => rfl | ⟨1, _⟩ => rfl | ⟨2, _⟩ => rfl | ⟨3, _⟩ => rfl

/-- The last contraction reads the value at (b, h, k, d). -/
theorem ridx_v19 (b : Fin 2) (h : Fin 16) (r : Fin 2048) (d : Fin 64) (k : Fin 2048) :
    ridx_main_v19 (ix4 b h r d) k = ix4 b h k d := by
  funext a; apply Fin.ext
  match a with | ⟨0, _⟩ => rfl | ⟨1, _⟩ => rfl | ⟨2, _⟩ => rfl | ⟨3, _⟩ => rfl

/-- THE ATTENDED VALUES: the reference program's nineteenth result is the attended values array. -/
theorem attended_eq (x0 x1 x2 : Rows) (x3 : Mask) :
    Cert.ReferenceIdeal.Read.val_main_v19 (F := Ideal) x0 x1 x2 x3 = attended x0 x1 x3 x2 := by
  funext i
  obtain ⟨b, h, r, d, rfl⟩ : ∃ b h r d, i = ix4 b h r d := ⟨_, _, _, _, eq_ix4 i⟩
  rw [val_main_v19_apply]
  change _ = ∑ k : Fin 2048, weightOf (rowOf x0 b h r) (rowsOf x1 b h) (maskRowOf x3 b r) k * x2 (ix4 b h k d)
  exact Finset.sum_congr rfl fun k _ => by rw [lidx_v19, ridx_v19, weights_apply]

end Cert.Attention.Reference

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.LibMatrixForms.lean ====
/-
  Three small facts about arrays read at an index written by its coordinates.

  A rank-4 array whose two leading axes have extent one, cast to the matrix of its two trailing axes, reads at
  (i, j) the operand at (0, 0, i, j); the cast back reads at (u, w, i, j) the matrix at (i, j), whatever the two
  unit coordinates: in each case both indices sit at the same row-major position. And when a matrix is reduced
  along its last axis, the reduced index (i) with the coordinate k put back on that axis is (i, k).
-/
import Idealize.ShloMosaic.Lib.Pipeline.Value
import Idealize.ShloMosaic.Lib.ValueIdx
import Idealize.ShloMosaic.PureOps.Reduce

namespace Idealize.ShloMosaic.ValueLayout

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, w, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    rw [hu, hw]
    simp)

end Idealize.ShloMosaic.ValueLayout

namespace Idealize.ShloMosaic.ValueIdx

open Idealize.ShloMosaic

/-- A matrix `[A, B]` reduced along its last axis: the reduced index `(i)` with `k` put back is `(i, k)`. -/
theorem lift2_last {A B : ℕ} (h : (⟨2, ![A, B]⟩ : Shape).Reduces [1] (⟨1, ![A]⟩ : Shape)) (i : Fin A)
    (k : Fin ((⟨2, ![A, B]⟩ : Shape).size 1)) : h.lift (ix1 i) k = ix2 i (⟨k.val, k.isLt⟩ : Fin B) := by
  funext x; apply Fin.ext
  fin_cases x <;> rfl

end Idealize.ShloMosaic.ValueIdx
-- ==== Proof.RowSoftmax.lean ====
/-
  The softmax of a matrix of 512 rows and 2048 lanes, as a kernel body spells it, read at one entry.

  The body takes each row's maximum by a lane reduction from minus infinity, lays it out as a column and
  broadcasts it back over the lanes, subtracts, exponentiates, sums each row by a second lane reduction, lays that
  out the same way, and divides. Read at the entry (r, c) this is the softmax of row r at c: the column cast and
  the lane broadcast only carry row r's value to every lane, and on the extended reals a lane reduction is the
  fold of max, or the finite sum, over the lane coordinate.
-/
import Idealize.ShloMosaic.PureOps.Ideal.Laws
import Idealize.ShloMosaic.Lib.ValueIdx
import Idealize.ShloMosaic.Lib.Pipeline.Value
import proofs.«166812_j25975962206620_2_alg».proof.Proof.Softmax
import proofs.«166812_j25975962206620_2_alg».proof.Proof.LibColumnForms
import proofs.«166812_j25975962206620_2_alg».proof.Proof.LibMatrixForms

noncomputable section

open scoped BigOperators

namespace Cert.Attention

open Idealize.ShloMosaic Idealize.ShloMosaic.ValueIdx Idealize.ShloMosaic.ValueLayout

variable (L : FVec Ideal (⟨2, ![512, 2048]⟩ : Shape) .f32)
  (hR : (⟨2, ![512, 2048]⟩ : Shape).Reduces [1] (⟨1, ![512]⟩ : Shape))
  (hC : (⟨1, ![512]⟩ : Shape).ShapeCasts (⟨2, ![512, 1]⟩ : Shape))
  (hB : (⟨2, ![512, 1]⟩ : Shape).Broadcasts (⟨2, ![512, 2048]⟩ : Shape))
  (hφ : FKind.Formats .f32)
  (hmax : (0xFF800000#32 : BitVec (FTy.bits .f32)) = FKind.maximumf.neutral .f32 hφ)
  (hadd : (0x00000000#32 : BitVec (FTy.bits .f32)) = FKind.add.neutral .f32 hφ)

/-- The rows' maxima, broadcast back over the lanes. -/
def lanePeaks : FVec Ideal (⟨2, ![512, 2048]⟩ : Shape) .f32 :=
  broadcastTo (⟨2, ![512, 2048]⟩ : Shape)
    (shapeCast (⟨2, ![512, 1]⟩ : Shape) (multiReduction .maximumf [1] (⟨1, ![512]⟩ : Shape) L 0xFF800000#32 hR hφ hmax) hC) hB

/-- At (r, c) it is row r's peak. -/
theorem lanePeaks_at (r : Fin 512) (c : Fin 2048) :
    lanePeaks L hR hC hB hφ hmax (ix2 r c) = peakOf fun c' => L (ix2 r c') := by
  unfold lanePeaks
  refine (broadcastTo_a1_ab_apply _ hB r c).trans ?_
  refine (shapeCast_a_a1_apply _ hC r 0).trans ?_
  refine (Ideal.multiReduction_maximumf_single L _ hR hφ hmax (ix1 r)).trans ?_
  unfold peakOf
  exact congrArg (fun f : Fin 2048 → EReal => (Finset.univ : Finset (Fin 2048)).fold max (Ideal.ofBits .f32 0xFF800000#32) f)
    (funext fun k => congrArg L (lift2_last hR r k))

/-- The exponentials of the entries below their rows' peaks. -/
def laneExps : FVec Ideal (⟨2, ![512, 2048]⟩ : Shape) .f32 := exp (subf L (lanePeaks L hR hC hB hφ hmax))

/-- At (r, c) it is the exponential of row r's entry c below row r's peak. -/
theorem laneExps_at (r : Fin 512) (c : Fin 2048) :
    laneExps L hR hC hB hφ hmax (ix2 r c) = expOf (fun c' => L (ix2 r c')) c := by
  show Ideal.exp (L (ix2 r c) - lanePeaks L hR hC hB hφ hmax (ix2 r c)) = _
  rw [lanePeaks_at L hR hC hB hφ hmax r c]
  rfl

/-- A row's sum, by a lane reduction, broadcast back over the lanes: at (r, c) the finite sum of row r. -/
theorem laneTotals_at (E : FVec Ideal (⟨2, ![512, 2048]⟩ : Shape) .f32) (r : Fin 512) (c : Fin 2048) :
    broadcastTo (⟨2, ![512, 2048]⟩ : Shape)
        (shapeCast (⟨2, ![512, 1]⟩ : Shape) (multiReduction .add [1] (⟨1, ![512]⟩ : Shape) E 0x00000000#32 hR hφ hadd) hC) hB (ix2 r c)
      = ∑ c' : Fin 2048, E (ix2 r c') := by
  refine (broadcastTo_a1_ab_apply _ hB r c).trans ?_
  refine (shapeCast_a_a1_apply _ hC r 0).trans ?_
  refine (Ideal.multiReduction_add_single E _ hR hφ hadd (ix1 r)).trans ?_
  exact Finset.sum_congr rfl fun k _ => congrArg E (lift2_last hR r k)

/-- THE BODY'S SOFTMAX AT AN ENTRY: the exponentials divided by their rows' sums, at (r, c), is the softmax of row r at c. -/
theorem laneSoftmax_at (r : Fin 512) (c : Fin 2048) :
    divf (laneExps L hR hC hB hφ hmax)
        (broadcastTo (⟨2, ![512, 2048]⟩ : Shape)
          (shapeCast (⟨2, ![512, 1]⟩ : Shape)
            (multiReduction .add [1] (⟨1, ![512]⟩ : Shape) (laneExps L hR hC hB hφ hmax) 0x00000000#32 hR hφ hadd) hC) hB) (ix2 r c)
      = softmaxOf (fun c' => L (ix2 r c')) c := by
  show Ideal.div (laneExps L hR hC hB hφ hmax (ix2 r c)) _ = _
  rw [laneTotals_at hR hC hB hφ hadd (laneExps L hR hC hB hφ hmax) r c, laneExps_at L hR hC hB hφ hmax r c]
  unfold softmaxOf
  exact congrArg (Ideal.div _) (Finset.sum_congr rfl fun c' _ => laneExps_at L hR hC hB hφ hmax r c')

end Cert.Attention

end
-- ==== Proof.BodyValue.lean ====
/-
  What the kernel body computes from the blocks it loads, read at one entry.

  The body loads a block of 512 query rows, the 2048 key rows and the 2048 value rows of one head, and the
  mask's 512 rows by 2048 entries; each block has two leading axes of extent one. It multiplies the query
  rows by the key rows (contracting the 64 features), scales by 0.125, adds the mask times -1e9, takes the softmax
  of each of the 512 rows, stores that as the weights block, and multiplies the weights by the value rows
  (contracting the 2048 key rows) for the attended block. A change of float format is the identity on the
  extended reals, a product into a zero accumulator is the plain finite sum of products, and the casts that drop
  or add the unit axes keep every entry in place. So at row r: the weights at c are the softmax, at c, of row r's
  logits, and the attended feature d is the sum over c of those weights times the value rows' feature d.
-/
import proofs.«166812_j25975962206620_2_alg».proof.Proof.Gen.KernelIdeal.Skeleton
import proofs.«166812_j25975962206620_2_alg».proof.Proof.RowSoftmax

noncomputable section

open scoped BigOperators

namespace Cert.Attention.Body

open Cert.KernelIdeal Cert.KernelIdeal.Gen Cert.Attention
open Idealize.ShloMosaic Idealize.ShloMosaic.ValueIdx Idealize.ShloMosaic.ValueLayout

/-! ## The two products' operand indices -/

theorem qk_lhs_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem qk_rhs_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The query-key product at (r, c): the sum over the 64 features of query row r times key row c. -/
theorem scores_at (Q : FVec Ideal S512x64 .bf16) (K : FVec Ideal S2048x64 .bf16) (r : Fin 512) (c : Fin 2048) :
    matmul dot_S512x64_S2048x64_S512x2048_1_1_0_0_n_n none Q K (constant S512x2048 .f32 0x00000000#32) (ix2 r c)
      = ∑ d : Fin 64, Q (ix2 r d) * K (ix2 c d) := by
  refine (Ideal.matmul_constant_zero_apply dot_S512x64_S2048x64_S512x2048_1_1_0_0_n_n none Q K (ix2 r c)).trans ?_
  rw [← Equiv.sum_comp (contrEquiv1 dot_S512x64_S2048x64_S512x2048_1_1_0_0_n_n 64 rfl rfl).symm]
  refine Finset.sum_congr rfl fun d _ => ?_
  have hd := contrEquiv1_symm_val dot_S512x64_S2048x64_S512x2048_1_1_0_0_n_n 64 rfl rfl d
  have el : dot_S512x64_S2048x64_S512x2048_1_1_0_0_n_n.lhsIdx (ix2 r c) ((contrEquiv1 dot_S512x64_S2048x64_S512x2048_1_1_0_0_n_n 64 rfl rfl).symm d) = ix2 r d := funext fun a => Fin.ext (by
    match a with
    | ⟨0, _⟩ => exact qk_lhs_0 _ _
    | ⟨1, _⟩ => exact (qk_lhs_1 _ _).trans hd)
  have er : dot_S512x64_S2048x64_S512x2048_1_1_0_0_n_n.rhsIdx (ix2 r c) ((contrEquiv1 dot_S512x64_S2048x64_S512x2048_1_1_0_0_n_n 64 rfl rfl).symm d) = ix2 c d := funext fun a => Fin.ext (by
    match a with
    | ⟨0, _⟩ => exact qk_rhs_0 _ _
    | ⟨1, _⟩ => exact (qk_rhs_1 _ _).trans hd)
  rw [el, er]

theorem wv_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem wv_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem wv_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem wv_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The weights-values product at (r, d): the sum over the 2048 key rows of weight (r, c) times value row c's feature d. -/
theorem mix_at (W : FVec Ideal S512x2048 .bf16) (V : FVec Ideal S2048x64 .bf16) (r : Fin 512) (d : Fin 64) :
    matmul dot_S512x2048_S2048x64_S512x64_1_0_0_1_n_n none W V (constant S512x64 .f32 0x00000000#32) (ix2 r d)
      = ∑ c : Fin 2048, W (ix2 r c) * V (ix2 c d) := by
  refine (Ideal.matmul_constant_zero_apply dot_S512x2048_S2048x64_S512x64_1_0_0_1_n_n none W V (ix2 r d)).trans ?_
  rw [← Equiv.sum_comp (contrEquiv1 dot_S512x2048_S2048x64_S512x64_1_0_0_1_n_n 2048 rfl rfl).symm]
  refine Finset.sum_congr rfl fun c _ => ?_
  have hc := contrEquiv1_symm_val dot_S512x2048_S2048x64_S512x64_1_0_0_1_n_n 2048 rfl rfl c
  have el : dot_S512x2048_S2048x64_S512x64_1_0_0_1_n_n.lhsIdx (ix2 r d) ((contrEquiv1 dot_S512x2048_S2048x64_S512x64_1_0_0_1_n_n 2048 rfl rfl).symm c) = ix2 r c := funext fun a => Fin.ext (by
    match a with
    | ⟨0, _⟩ => exact wv_lhs_0 _ _
    | ⟨1, _⟩ => exact (wv_lhs_1 _ _).trans hc)
  have er : dot_S512x2048_S2048x64_S512x64_1_0_0_1_n_n.rhsIdx (ix2 r d) ((contrEquiv1 dot_S512x2048_S2048x64_S512x64_1_0_0_1_n_n 2048 rfl rfl).symm c) = ix2 c d := funext fun a => Fin.ext (by
    match a with
    | ⟨0, _⟩ => exact (wv_rhs_0 _ _).trans hc
    | ⟨1, _⟩ => exact wv_rhs_1 _ _)
  rw [el, er]

/-! ## The body's logits, weights and attended values from its loaded blocks -/

/-- The logits block: the query-key product scaled by 0.125, plus the mask block times -1e9. -/
def blockLogits (P0 : Vec Ideal S1x1x512x64 .f32) (P1 : Vec Ideal S1x1x2048x64 .f32) (P3 : Vec Ideal S1x1x512x2048 .bf16) :
    FVec Ideal S512x2048 .f32 :=
  addf
    (mulf
      (matmul dot_S512x64_S2048x64_S512x2048_1_1_0_0_n_n none
        (truncf .bf16 (shapeCast S512x64 P0 Facts₀.shapeCasts_S1x1x512x64_S512x64) Facts₀.bitsLt_bf16_f32)
        (truncf .bf16 (shapeCast S2048x64 P1 Facts₀.shapeCasts_S1x1x2048x64_S2048x64) Facts₀.bitsLt_bf16_f32)
        (constant S512x2048 .f32 0x00000000#32))
      (broadcast S512x2048 (Scalar.ofBits .f32 0x3E000000#32)))
    (mulf (extf .f32 (shapeCast S512x2048 P3 Facts₀.shapeCasts_S1x1x512x2048_S512x2048) Facts₀.bitsLt_bf16_f32)
      (broadcast S512x2048 (Scalar.ofBits .f32 0xCE6E6B28#32)))

/-- At (r, c) the logits block is the logit of the block's query row r against key row c, under the mask's entry (r, c). -/
theorem blockLogits_at (P0 : Vec Ideal S1x1x512x64 .f32) (P1 : Vec Ideal S1x1x2048x64 .f32) (P3 : Vec Ideal S1x1x512x2048 .bf16)
    (r : Fin 512) (c : Fin 2048) :
    blockLogits P0 P1 P3 (ix2 r c)
      = logitOf (fun d => P0 (ix4 (0 : Fin 1) (0 : Fin 1) r d)) (fun c' d => P1 (ix4 (0 : Fin 1) (0 : Fin 1) c' d))
          (fun c' => P3 (ix4 (0 : Fin 1) (0 : Fin 1) r c')) c := by
  show matmul dot_S512x64_S2048x64_S512x2048_1_1_0_0_n_n none
        (truncf .bf16 (shapeCast S512x64 P0 Facts₀.shapeCasts_S1x1x512x64_S512x64) Facts₀.bitsLt_bf16_f32)
        (truncf .bf16 (shapeCast S2048x64 P1 Facts₀.shapeCasts_S1x1x2048x64_S2048x64) Facts₀.bitsLt_bf16_f32)
        (constant S512x2048 .f32 0x00000000#32) (ix2 r c) * Ideal.ofBits .f32 0x3E000000#32
      + shapeCast S512x2048 P3 Facts₀.shapeCasts_S1x1x512x2048_S512x2048 (ix2 r c) * Ideal.ofBits .f32 0xCE6E6B28#32 = _
  rw [scores_at, shapeCast_11ab_ab_apply P3]
  unfold logitOf
  refine congrArg (fun s : EReal => s * Ideal.ofBits .f32 0x3E000000#32 + P3 (ix4 (0 : Fin 1) (0 : Fin 1) r c) * Ideal.ofBits .f32 0xCE6E6B28#32) ?_
  refine Finset.sum_congr rfl fun d _ => ?_
  show shapeCast S512x64 P0 Facts₀.shapeCasts_S1x1x512x64_S512x64 (ix2 r d) * shapeCast S2048x64 P1 Facts₀.shapeCasts_S1x1x2048x64_S2048x64 (ix2 c d) = _
  rw [shapeCast_11ab_ab_apply P0, shapeCast_11ab_ab_apply P1]

/-- The weights payload is the body's softmax of its logits block. -/
theorem weightsPayload_eq (P0 : Vec Ideal S1x1x512x64 .f32) (P1 : Vec Ideal S1x1x2048x64 .f32) (P3 : Vec Ideal S1x1x512x2048 .bf16) :
    k0_pay3 P0 P1 P3
      = divf (laneExps (blockLogits P0 P1 P3) Facts₀.reduces_S512x2048_S512 Facts₀.shapeCasts_S512_S512x1 Facts₀.broadcasts_S512x1_S512x2048 (.inl rfl) rfl)
          (broadcastTo S512x2048
            (shapeCast S512x1
              (multiReduction .add [1] S512
                (laneExps (blockLogits P0 P1 P3) Facts₀.reduces_S512x2048_S512 Facts₀.shapeCasts_S512_S512x1 Facts₀.broadcasts_S512x1_S512x2048 (.inl rfl) rfl)
                0x00000000#32 Facts₀.reduces_S512x2048_S512 (.inl rfl) rfl)
              Facts₀.shapeCasts_S512_S512x1)
            Facts₀.broadcasts_S512x1_S512x2048) := rfl

/-- THE WEIGHTS BLOCK AT (r, c): the softmax, at c, of the logits of the block's query row r. -/
theorem weightsPayload_at (P0 : Vec Ideal S1x1x512x64 .f32) (P1 : Vec Ideal S1x1x2048x64 .f32) (P3 : Vec Ideal S1x1x512x2048 .bf16)
    (r : Fin 512) (c : Fin 2048) :
    k0_pay3 P0 P1 P3 (ix2 r c)
      = weightOf (fun d => P0 (ix4 (0 : Fin 1) (0 : Fin 1) r d)) (fun c' d => P1 (ix4 (0 : Fin 1) (0 : Fin 1) c' d))
          (fun c' => P3 (ix4 (0 : Fin 1) (0 : Fin 1) r c')) c := by
  rw [weightsPayload_eq]
  refine (laneSoftmax_at (blockLogits P0 P1 P3) _ _ _ _ _ _ r c).trans ?_
  unfold weightOf
  exact congrArg (fun f : Fin 2048 → EReal => softmaxOf f c) (funext fun c' => blockLogits_at P0 P1 P3 r c')

/-- THE ATTENDED BLOCK AT (u, w, r, d), whatever the two unit coordinates: the weighted sum, over the key rows, of the
    value rows' feature d, the weights being row r's. -/
theorem attendedPayload_at (P0 : Vec Ideal S1x1x512x64 .f32) (P1 : Vec Ideal S1x1x2048x64 .f32) (P2 : Vec Ideal S1x1x2048x64 .f32)
    (P3 : Vec Ideal S1x1x512x2048 .bf16) (u w : Fin 1) (r : Fin 512) (d : Fin 64) :
    k0_pay1 (k0_pay2 P2) (k0_pay5 P0 P1 P3) (ix4 u w r d)
      = attendOf (fun d' => P0 (ix4 (0 : Fin 1) (0 : Fin 1) r d')) (fun c' d' => P1 (ix4 (0 : Fin 1) (0 : Fin 1) c' d'))
          (fun c' => P3 (ix4 (0 : Fin 1) (0 : Fin 1) r c')) (fun c' d' => P2 (ix4 (0 : Fin 1) (0 : Fin 1) c' d')) d := by
  show shapeCast S1x1x512x64
      (matmul dot_S512x2048_S2048x64_S512x64_1_0_0_1_n_n none (k0_pay5 P0 P1 P3) (k0_pay2 P2) (constant S512x64 .f32 0x00000000#32))
      Facts₀.shapeCasts_S512x64_S1x1x512x64 (ix4 u w r d) = _
  rw [shapeCast_ab_11ab_apply, mix_at]
  unfold attendOf
  refine Finset.sum_congr rfl fun c _ => ?_
  show k0_pay3 P0 P1 P3 (ix2 r c) * shapeCast S2048x64 P2 Facts₀.shapeCasts_S1x1x2048x64_S2048x64 (ix2 c d) = _
  rw [weightsPayload_at, shapeCast_11ab_ab_apply P2]

/-- THE STORED WEIGHTS BLOCK AT (u, w, r, c), whatever the two unit coordinates: the cast that adds the unit axes keeps
    entry (r, c) in place. -/
theorem weightsStore_at (P0 : Vec Ideal S1x1x512x64 .f32) (P1 : Vec Ideal S1x1x2048x64 .f32) (P3 : Vec Ideal S1x1x512x2048 .bf16)
    (u w : Fin 1) (r : Fin 512) (c : Fin 2048) :
    k0_pay4 P0 P1 P3 (ix4 u w r c)
      = weightOf (fun d => P0 (ix4 (0 : Fin 1) (0 : Fin 1) r d)) (fun c' d => P1 (ix4 (0 : Fin 1) (0 : Fin 1) c' d))
          (fun c' => P3 (ix4 (0 : Fin 1) (0 : Fin 1) r c')) c := by
  show shapeCast S1x1x512x2048 (k0_pay3 P0 P1 P3) Facts₀.shapeCasts_S512x2048_S1x1x512x2048 (ix4 u w r c) = _
  rw [shapeCast_ab_11ab_apply]
  exact weightsPayload_at P0 P1 P3 r c

end Cert.Attention.Body

end
-- ==== Proof.BlockCover.lean ====
/-
  Which grid point covers which entries of the two output arrays, and what the mask's window reads.

  The grid has 2 x 4 x 16 points; the point with coordinates (b, qi, h) works on batch entry b, head h and the
  qi-th block of 512 query rows. Read off the printed index maps and decided once over the 128 points:
    the query block, the attended-values block and the weights block sit at block index (b, h, qi, 0);
    the key and value blocks at (b, h, 0, 0); the mask's block at (b, 0, qi, 0);
  and every triple (b, h, qi) is some point's. A block's coordinate in its array is always the block index times
  the block's extent plus the coordinate inside the block, so an entry (b, h, r, c) of an output array lies in
  the block of the point with block index (b, h, r / 512, 0): the output blocks cover their arrays.
  The mask reaches its window through one host operation, a change of format, which on the extended reals is the
  identity entry by entry.
-/
import proofs.«166812_j25975962206620_2_alg».proof.Proof.Gen.KernelIdeal.Value
import Idealize.ShloMosaic.Lib.Pipeline.Value
import Idealize.ShloMosaic.Lib.ValueIdx
import Idealize.ShloMosaic.Lib.StableHlo.Run

noncomputable section

namespace Cert.Attention.Blocks

open Cert.KernelIdeal Cert.KernelIdeal.Gen Idealize.ShloMosaic Idealize.ShloMosaic.TcCoe Idealize.SL.Sem

/-! ## The index maps, decided over the grid -/

/-- The six block indices at a grid point, axis by axis, against the weights block's: the query block and the
    attended-values block have the same block index; the key and value blocks agree with it on batch and head and
    are at 0 on the two last axes; the mask's block agrees with it on batch and query block and is at 0 on the
    head and the last axis; the weights block's last index is 0 and the others stay in their ranges. -/
theorem index_facts : ∀ t : Fin cfg0.N,
    win0_0.index t (0 : Fin 4) = win0_5.index t (0 : Fin 4)
    ∧ win0_0.index t (1 : Fin 4) = win0_5.index t (1 : Fin 4)
    ∧ win0_0.index t (2 : Fin 4) = win0_5.index t (2 : Fin 4)
    ∧ win0_0.index t (3 : Fin 4) = win0_5.index t (3 : Fin 4)
    ∧ win0_4.index t (0 : Fin 4) = win0_5.index t (0 : Fin 4)
    ∧ win0_4.index t (1 : Fin 4) = win0_5.index t (1 : Fin 4)
    ∧ win0_4.index t (2 : Fin 4) = win0_5.index t (2 : Fin 4)
    ∧ win0_4.index t (3 : Fin 4) = win0_5.index t (3 : Fin 4)
    ∧ win0_1.index t (0 : Fin 4) = win0_5.index t (0 : Fin 4)
    ∧ win0_1.index t (1 : Fin 4) = win0_5.index t (1 : Fin 4)
    ∧ win0_1.index t (2 : Fin 4) = 0
    ∧ win0_1.index t (3 : Fin 4) = 0
    ∧ win0_2.index t (0 : Fin 4) = win0_5.index t (0 : Fin 4)
    ∧ win0_2.index t (1 : Fin 4) = win0_5.index t (1 : Fin 4)
    ∧ win0_2.index t (2 : Fin 4) = 0
    ∧ win0_2.index t (3 : Fin 4) = 0
    ∧ win0_3.index t (0 : Fin 4) = win0_5.index t (0 : Fin 4)
    ∧ win0_3.index t (1 : Fin 4) = 0
    ∧ win0_3.index t (2 : Fin 4) = win0_5.index t (2 : Fin 4)
    ∧ win0_3.index t (3 : Fin 4) = 0
    ∧ win0_5.index t (3 : Fin 4) = 0
    ∧ win0_5.index t (0 : Fin 4) ≤ 1
    ∧ win0_5.index t (1 : Fin 4) ≤ 15
    ∧ win0_5.index t (2 : Fin 4) ≤ 3 :=
  (by decide +kernel : ∀ t : Fin grid0.N, _)

/-- Every (batch entry, head, query block) is some point's weights block index. -/
theorem index_onto5 : ∀ (b : Fin 2) (h : Fin 16) (qi : Fin 4), ∃ t : Fin cfg0.N, win0_5.index t = ![b.val, h.val, qi.val, 0] :=
  (by decide +kernel : ∀ (b : Fin 2) (h : Fin 16) (qi : Fin 4), ∃ t : Fin grid0.N, win0_5.index t = ![b.val, h.val, qi.val, 0])

/-- Every (batch entry, head, query block) is some point's attended-values block index. -/
theorem index_onto4 : ∀ (b : Fin 2) (h : Fin 16) (qi : Fin 4), ∃ t : Fin cfg0.N, win0_4.index t = ![b.val, h.val, qi.val, 0] :=
  (by decide +kernel : ∀ (b : Fin 2) (h : Fin 16) (qi : Fin 4), ∃ t : Fin grid0.N, win0_4.index t = ![b.val, h.val, qi.val, 0])

/-! ## Membership in a point's block -/

/-- An entry of the weights array is in point t's block iff each coordinate is in the block's range on its axis. -/
theorem mem_block5 (t : Fin cfg0.N) (i : S2x16x2048x2048.Idx) :
    i ∈ ((cfg0.win 5).blk t).view.set ↔ ∀ a : Fin 4, win0_5.index t a * S1x1x512x2048.size a ≤ (i a).val ∧ (i a).val < win0_5.index t a * S1x1x512x2048.size a + S1x1x512x2048.size a := by
  show i ∈ ((View.whole main_v1_1).slice (win0_5.rect t)).set ↔ _
  rw [View.set_slice_whole, Rect.mem_set_unit]
  exact Iff.rfl

/-- An entry of the attended-values array is in point t's block iff each coordinate is in the block's range on its axis. -/
theorem mem_block4 (t : Fin cfg0.N) (i : S2x16x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v1_0).slice (win0_4.rect t)).set ↔ _
  rw [View.set_slice_whole, Rect.mem_set_unit]
  exact Iff.rfl

/-! ## The output blocks cover their arrays -/

/-- Every entry (b, h, r, c) of the weights array is in the block of a point that writes back: the point whose
    block index is (b, h, r / 512, 0). -/
theorem cover5 : ∀ i : S2x16x2048x2048.Idx, ∃ t : Fin cfg0.N, (cfg0.win 5).flush t = true ∧ i ∈ ((cfg0.win 5).blk t).view.set := by
  intro i
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := index_onto5 ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_block5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every entry (b, h, r, d) of the attended-values array is in the block of a point that writes back: the point
    whose block index is (b, h, r / 512, 0). -/
theorem cover4 : ∀ i : S2x16x2048x64.Idx, ∃ t : Fin cfg0.N, (cfg0.win 4).flush t = true ∧ i ∈ ((cfg0.win 4).blk t).view.set := by
  intro i
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := index_onto4 ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_block4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The mask as its window finds it -/

/-- The array the mask's window stages is the mask argument itself: the one host operation before the region
    changes the format only, and on the extended reals a change of format is the identity entry by entry. -/
theorem mask_array (m : (ℓ : Loc nD τ sig) → Buf (Elt Ideal) ℓ) (c : Dev nD) :
    (V m c main_v0 : S2x1x2048x2048.Idx → EReal) = (m ((c : Thread nD τ).loc main_arg3) : S2x1x2048x2048.Idx → EReal) := by
  have e : @Eq (S2x1x2048x2048.Idx → EReal) (V m c main_v0)
      (truncf (F := Ideal) (s := S2x1x2048x2048) (φ := .f32) .bf16 (m ((c : Thread nD τ).loc main_arg3)) bitsLt_bf16_f32) := by
    dsimp only [Gen.V, Gen.hostOps0]; after_results
  exact e.trans (funext fun i => ValueIdx.truncf_apply _ _ i)

end Cert.Attention.Blocks

end
-- ==== Proof.BlocksToArray.lean ====
/-
  From what each grid point writes back to the two whole output arrays.

  The grid point with coordinates (b, qi, h) loads the qi-th block of 512 query rows of head h of batch entry b,
  all key rows and all value rows of that head, and the qi-th block of 512 rows of the mask of batch entry b (the
  mask's one head), and writes back the same block of rows of the weights and of the attended values. An entry
  of a block sits in its array, on each axis, at the block index times the block's extent plus the coordinate
  inside the block. So the row of queries, the key rows, the mask row and the value rows that the body's result
  at a block entry is computed from are exactly those that the whole-array attention function reads at that
  entry's place in the array: each point writes back a block of ONE function of the argument arrays. The blocks
  cover both output arrays, so after the run each output array IS that function; and the arrays the region finds
  are the arguments themselves (the mask through a change of float format, the identity on the extended reals).
-/
import proofs.«166812_j25975962206620_2_alg».proof.Proof.Gen.KernelIdeal.Value
import proofs.«166812_j25975962206620_2_alg».proof.Proof.BodyValue
import proofs.«166812_j25975962206620_2_alg».proof.Proof.BlockCover

set_option maxRecDepth 16384

noncomputable section

namespace Cert.Attention.Blocks

open Cert.KernelIdeal Cert.KernelIdeal.Gen Cert.Attention Cert.Attention.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body loads and stores whole buffers: through the rectangle at the zero offsets. -/
theorem zero_offsets : (![0, 0, 0, 0] : Fin 4 → Nat) = fun _ => 0 := funext fun a => by fin_cases a <;> rfl

/-- One weight computed from a query row, key rows and a mask row IS the weights array's entry at an index, once
    those rows are the ones the array function reads at that index. -/
theorem weights_of_rows (q k : Rows) (mk : Mask) (i : (⟨4, ![2, 16, 2048, 2048]⟩ : Shape).Idx)
    (qrow : Fin 64 → EReal) (krows : Fin 2048 → Fin 64 → EReal) (mrow : Fin 2048 → EReal) (cc : Fin 2048)
    (hq : qrow = rowOf q (i 0) (i 1) (i 2)) (hk : krows = rowsOf k (i 0) (i 1)) (hm : mrow = maskRowOf mk (i 0) (i 2))
    (hc : cc = i 3) : weightOf qrow krows mrow cc = weights q k mk i := by
  subst hq hk hm hc; rfl

/-- The same for one attended feature and the attended-values array. -/
theorem attended_of_rows (q k : Rows) (mk : Mask) (v : Rows) (i : (⟨4, ![2, 16, 2048, 64]⟩ : Shape).Idx)
    (qrow : Fin 64 → EReal) (krows : Fin 2048 → Fin 64 → EReal) (mrow : Fin 2048 → EReal) (vrows : Fin 2048 → Fin 64 → EReal) (dd : Fin 64)
    (hq : qrow = rowOf q (i 0) (i 1) (i 2)) (hk : krows = rowsOf k (i 0) (i 1)) (hm : mrow = maskRowOf mk (i 0) (i 2))
    (hv : vrows = rowsOf v (i 0) (i 1)) (hd : dd = i 3) : attendOf qrow krows mrow vrows dd = attended q k mk v i := by
  subst hq hk hm hv hd; rfl

/-! ## What a point writes back is a block of the whole-array function -/

/-- WHAT POINT t WRITES BACK TO THE WEIGHTS ARRAY is block t of the weights function of the arrays the region finds. -/
theorem weights_flushed (c : Dev nD) (t : Fin cfg0.N) :
    (dats m 0 c).flushed 5 t = ((cfg0.win 5).blk t).view.read (Elt Ideal)
      (weights (V m c main_arg0) (V m c main_arg1) (V m c main_v0)) := by
  rw [Cert.KernelIdeal.Value.flushed5]
  unfold out0_5
  rw [View.canon_unit_zero zero_offsets]
  simp only [View.ld_unit_zero (S := S1x1x512x64) zero_offsets, View.ld_unit_zero (S := S1x1x2048x64) zero_offsets, View.ld_unit_zero (S := S1x1x512x2048) zero_offsets]
  obtain ⟨a0, a1, a2, a3, -, -, -, -, b0, b1, b2, b3, -, -, -, -, d0, d1, d2, d3, f3, -, -, -⟩ := index_facts t
  funext y
  revert y
  show ∀ y : S1x1x512x2048.Idx, k0_pay4 (iblk m c 0 t) (iblk m c 1 t) (iblk m c 3 t) y
      = weights (V m c main_arg0) (V m c main_arg1) (V m c main_v0) (((cfg0.win 5).blk t).view.emb y)
  intro y
  obtain ⟨u, w, r, cc, rfl⟩ : ∃ (u w : Fin 1) (r : Fin 512) (cc : Fin 2048), y = ix4 u w r cc := ⟨y 0, y 1, y 2, y 3, eq_ix4 y⟩
  have hu : u.val = 0 := by omega
  have hw : w.val = 0 := by omega
  refine (weightsStore_at (iblk m c 0 t) (iblk m c 1 t) (iblk m c 3 t) u w r cc).trans ?_
  refine weights_of_rows _ _ _ _ _ _ _ _ ?_ ?_ ?_ ?_
  · funext d
    show V m c main_arg0 (((cfg0.win 0).blk t).view.emb (ix4 (0 : Fin 1) (0 : Fin 1) r d))
      = V m c main_arg0 (ix4 (((cfg0.win 5).blk t).view.emb (ix4 u w r cc) 0) (((cfg0.win 5).blk t).view.emb (ix4 u w r cc) 1)
          (((cfg0.win 5).blk t).view.emb (ix4 u w r cc) 2) d)
    refine congrArg (V m c main_arg0) (funext fun a => Fin.ext ?_)
    match a with
    | ⟨0, _⟩ => show win0_0.index t (0 : Fin 4) * 1 + 1 * 0 = win0_5.index t (0 : Fin 4) * 1 + 1 * u.val; omega
    | ⟨1, _⟩ => show win0_0.index t (1 : Fin 4) * 1 + 1 * 0 = win0_5.index t (1 : Fin 4) * 1 + 1 * w.val; omega
    | ⟨2, _⟩ => show win0_0.index t (2 : Fin 4) * 512 + 1 * r.val = win0_5.index t (2 : Fin 4) * 512 + 1 * r.val; omega
    | ⟨3, _⟩ => show win0_0.index t (3 : Fin 4) * 64 + 1 * d.val = d.val; omega
  · funext c' d
    show V m c main_arg1 (((cfg0.win 1).blk t).view.emb (ix4 (0 : Fin 1) (0 : Fin 1) c' d))
      = V m c main_arg1 (ix4 (((cfg0.win 5).blk t).view.emb (ix4 u w r cc) 0) (((cfg0.win 5).blk t).view.emb (ix4 u w r cc) 1) c' d)
    refine congrArg (V m c main_arg1) (funext fun a => Fin.ext ?_)
    match a with
    | ⟨0, _⟩ => show win0_1.index t (0 : Fin 4) * 1 + 1 * 0 = win0_5.index t (0 : Fin 4) * 1 + 1 * u.val; omega
    | ⟨1, _⟩ => show win0_1.index t (1 : Fin 4) * 1 + 1 * 0 = win0_5.index t (1 : Fin 4) * 1 + 1 * w.val; omega
    | ⟨2, _⟩ => show win0_1.index t (2 : Fin 4) * 2048 + 1 * c'.val = c'.val; omega
    | ⟨3, _⟩ => show win0_1.index t (3 : Fin 4) * 64 + 1 * d.val = d.val; omega
  · funext c'
    show V m c main_v0 (((cfg0.win 3).blk t).view.emb (ix4 (0 : Fin 1) (0 : Fin 1) r c'))
      = V m c main_v0 (ix4 (((cfg0.win 5).blk t).view.emb (ix4 u w r cc) 0) (0 : Fin 1) (((cfg0.win 5).blk t).view.emb (ix4 u w r cc) 2) c')
    refine congrArg (V m c main_v0) (funext fun a => Fin.ext ?_)
    match a with
    | ⟨0, _⟩ => show win0_3.index t (0 : Fin 4) * 1 + 1 * 0 = win0_5.index t (0 : Fin 4) * 1 + 1 * u.val; omega
    | ⟨1, _⟩ => show win0_3.index t (1 : Fin 4) * 1 + 1 * 0 = 0; omega
    | ⟨2, _⟩ => show win0_3.index t (2 : Fin 4) * 512 + 1 * r.val = win0_5.index t (2 : Fin 4) * 512 + 1 * r.val; omega
    | ⟨3, _⟩ => show win0_3.index t (3 : Fin 4) * 2048 + 1 * c'.val = c'.val; omega
  · refine Fin.ext ?_
    show cc.val = win0_5.index t (3 : Fin 4) * 2048 + 1 * cc.val
    omega

/-- WHAT POINT t WRITES BACK TO THE ATTENDED-VALUES ARRAY is block t of the attended-values function of the arrays the
    region finds. -/
theorem attended_flushed (c : Dev nD) (t : Fin cfg0.N) :
    (dats m 0 c).flushed 4 t = ((cfg0.win 4).blk t).view.read (Elt Ideal)
      (attended (V m c main_arg0) (V m c main_arg1) (V m c main_v0) (V m c main_arg2)) := by
  rw [Cert.KernelIdeal.Value.flushed4]
  unfold out0_4
  rw [View.canon_unit_zero zero_offsets]
  simp only [View.ld_unit_zero (S := S1x1x512x64) zero_offsets, View.ld_unit_zero (S := S1x1x2048x64) zero_offsets, View.ld_unit_zero (S := S1x1x512x2048) zero_offsets]
  obtain ⟨a0, a1, a2, a3, h0, h1, h2, h3, b0, b1, b2, b3, g0, g1, g2, g3, d0, d1, d2, d3, f3, -, -, -⟩ := index_facts t
  funext y
  revert y
  show ∀ y : S1x1x512x64.Idx, k0_pay1 (k0_pay2 (iblk m c 2 t)) (k0_pay5 (iblk m c 0 t) (iblk m c 1 t) (iblk m c 3 t)) y
      = attended (V m c main_arg0) (V m c main_arg1) (V m c main_v0) (V m c main_arg2) (((cfg0.win 4).blk t).view.emb y)
  intro y
  obtain ⟨u, w, r, dd, rfl⟩ : ∃ (u w : Fin 1) (r : Fin 512) (dd : Fin 64), y = ix4 u w r dd := ⟨y 0, y 1, y 2, y 3, eq_ix4 y⟩
  have hu : u.val = 0 := by omega
  have hw : w.val = 0 := by omega
  refine (attendedPayload_at (iblk m c 0 t) (iblk m c 1 t) (iblk m c 2 t) (iblk m c 3 t) u w r dd).trans ?_
  refine attended_of_rows _ _ _ _ _ _ _ _ _ _ ?_ ?_ ?_ ?_ ?_
  · funext d
    show V m c main_arg0 (((cfg0.win 0).blk t).view.emb (ix4 (0 : Fin 1) (0 : Fin 1) r d))
      = V m c main_arg0 (ix4 (((cfg0.win 4).blk t).view.emb (ix4 u w r dd) 0) (((cfg0.win 4).blk t).view.emb (ix4 u w r dd) 1)
          (((cfg0.win 4).blk t).view.emb (ix4 u w r dd) 2) d)
    refine congrArg (V m c main_arg0) (funext fun a => Fin.ext ?_)
    match a with
    | ⟨0, _⟩ => show win0_0.index t (0 : Fin 4) * 1 + 1 * 0 = win0_4.index t (0 : Fin 4) * 1 + 1 * u.val; omega
    | ⟨1, _⟩ => show win0_0.index t (1 : Fin 4) * 1 + 1 * 0 = win0_4.index t (1 : Fin 4) * 1 + 1 * w.val; omega
    | ⟨2, _⟩ => show win0_0.index t (2 : Fin 4) * 512 + 1 * r.val = win0_4.index t (2 : Fin 4) * 512 + 1 * r.val; omega
    | ⟨3, _⟩ => show win0_0.index t (3 : Fin 4) * 64 + 1 * d.val = d.val; omega
  · funext c' d
    show V m c main_arg1 (((cfg0.win 1).blk t).view.emb (ix4 (0 : Fin 1) (0 : Fin 1) c' d))
      = V m c main_arg1 (ix4 (((cfg0.win 4).blk t).view.emb (ix4 u w r dd) 0) (((cfg0.win 4).blk t).view.emb (ix4 u w r dd) 1) c' d)
    refine congrArg (V m c main_arg1) (funext fun a => Fin.ext ?_)
    match a with
    | ⟨0, _⟩ => show win0_1.index t (0 : Fin 4) * 1 + 1 * 0 = win0_4.index t (0 : Fin 4) * 1 + 1 * u.val; omega
    | ⟨1, _⟩ => show win0_1.index t (1 : Fin 4) * 1 + 1 * 0 = win0_4.index t (1 : Fin 4) * 1 + 1 * w.val; omega
    | ⟨2, _⟩ => show win0_1.index t (2 : Fin 4) * 2048 + 1 * c'.val = c'.val; omega
    | ⟨3, _⟩ => show win0_1.index t (3 : Fin 4) * 64 + 1 * d.val = d.val; omega
  · funext c'
    show V m c main_v0 (((cfg0.win 3).blk t).view.emb (ix4 (0 : Fin 1) (0 : Fin 1) r c'))
      = V m c main_v0 (ix4 (((cfg0.win 4).blk t).view.emb (ix4 u w r dd) 0) (0 : Fin 1) (((cfg0.win 4).blk t).view.emb (ix4 u w r dd) 2) c')
    refine congrArg (V m c main_v0) (funext fun a => Fin.ext ?_)
    match a with
    | ⟨0, _⟩ => show win0_3.index t (0 : Fin 4) * 1 + 1 * 0 = win0_4.index t (0 : Fin 4) * 1 + 1 * u.val; omega
    | ⟨1, _⟩ => show win0_3.index t (1 : Fin 4) * 1 + 1 * 0 = 0; omega
    | ⟨2, _⟩ => show win0_3.index t (2 : Fin 4) * 512 + 1 * r.val = win0_4.index t (2 : Fin 4) * 512 + 1 * r.val; omega
    | ⟨3, _⟩ => show win0_3.index t (3 : Fin 4) * 2048 + 1 * c'.val = c'.val; omega
  · funext c' d
    show V m c main_arg2 (((cfg0.win 2).blk t).view.emb (ix4 (0 : Fin 1) (0 : Fin 1) c' d))
      = V m c main_arg2 (ix4 (((cfg0.win 4).blk t).view.emb (ix4 u w r dd) 0) (((cfg0.win 4).blk t).view.emb (ix4 u w r dd) 1) c' d)
    refine congrArg (V m c main_arg2) (funext fun a => Fin.ext ?_)
    match a with
    | ⟨0, _⟩ => show win0_2.index t (0 : Fin 4) * 1 + 1 * 0 = win0_4.index t (0 : Fin 4) * 1 + 1 * u.val; omega
    | ⟨1, _⟩ => show win0_2.index t (1 : Fin 4) * 1 + 1 * 0 = win0_4.index t (1 : Fin 4) * 1 + 1 * w.val; omega
    | ⟨2, _⟩ => show win0_2.index t (2 : Fin 4) * 2048 + 1 * c'.val = c'.val; omega
    | ⟨3, _⟩ => show win0_2.index t (3 : Fin 4) * 64 + 1 * d.val = d.val; omega
  · refine Fin.ext ?_
    show dd.val = win0_4.index t (3 : Fin 4) * 64 + 1 * dd.val
    omega

/-! ## The two output arrays after the run -/

/-- THE WEIGHTS ARRAY after the run is the weights function of the argument arrays. -/
theorem weights_final (c : Dev nD) :
    (dats m 0 c).arrAt 5 cfg0.N
      = weights (m ((c : Thread nD τ).loc main_arg0)) (m ((c : Thread nD τ).loc main_arg1)) (m ((c : Thread nD τ).loc main_arg3)) := by
  rw [(dats m 0 c).arrAt_eq_of_cover 5 _ (fun t _ => weights_flushed m c t) cover5, V_main_arg0, V_main_arg1, mask_array m c]

/-- THE ATTENDED-VALUES ARRAY after the run is the attended-values function of the argument arrays. -/
theorem attended_final (c : Dev nD) :
    (dats m 0 c).arrAt 4 cfg0.N
      = attended (m ((c : Thread nD τ).loc main_arg0)) (m ((c : Thread nD τ).loc main_arg1)) (m ((c : Thread nD τ).loc main_arg3))
          (m ((c : Thread nD τ).loc main_arg2)) := by
  rw [(dats m 0 c).arrAt_eq_of_cover 4 _ (fun t _ => attended_flushed m c t) cover4, V_main_arg0, V_main_arg1, V_main_arg2, mask_array m c]

/-- THE KERNEL'S RUN, READ: every weakly fair execution terminates with the two result arrays at the attended-values and
    the weights functions of the argument arrays, and the arguments unchanged. -/
theorem run : θ_run defs (onTc (τ := τ) (main (F := Ideal))) ⟨m, fun _ => 0, ρ⟩ fun r => ∀ c : Dev nD,
      r.2.mem ((c : Thread nD τ).loc main_v1_0)
        = attended (m ((c : Thread nD τ).loc main_arg0)) (m ((c : Thread nD τ).loc main_arg1)) (m ((c : Thread nD τ).loc main_arg3))
            (m ((c : Thread nD τ).loc main_arg2))
      ∧ r.2.mem ((c : Thread nD τ).loc main_v1_1)
        = weights (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (attended_final m c), (h c).2.1.trans (weights_final m c), (h c).2.2⟩)
    (Cert.KernelIdeal.Value.run_blocks m ρ)

end Cert.Attention.Blocks

end
-- ==== Proof.lean ====
/-
  Masked scaled-dot-product attention: a tiled kernel against the plain array program.

  For q, k, v of shape [2, 16, 2048, 64] and a mask of shape [2, 1, 2048, 2048] both programs return the attended
  values and the attention weights,
      weights[b,h,r,:] = softmax over c of ( (sum over d of q[b,h,r,d] * k[b,h,c,d]) scaled + mask[b,0,r,c] * (-1e9) ),
      out[b,h,r,d]     = sum over c of weights[b,h,r,c] * v[b,h,c,d].
  The kernel works on one head and one block of 512 query rows per grid point, with all 2048 key and value rows
  present, so every row's maximum, sum and weighted sum is taken whole inside one point: no sum is split across
  points. Read on the extended reals the two programs differ in three places only. The kernel changes float
  formats around its two products and the host converts the mask before the launch: a change of format is the
  identity. The kernel scales the products by the constant 0.125 where the other program divides by the square
  root of the constant 64: the root is 8 and dividing by 8 is multiplying by 1/8 at every extended real, the
  infinities included. And the other program takes the maximum of minus infinity with each row's maximum, which
  is already folded from minus infinity: the extra maximum changes nothing. No step uses that the inputs are
  finite, so the precondition is never opened.

  The pieces: Softmax (the function itself, one query row at a time, then the two arrays), Consts (the scaling
  law), RowSoftmax and BodyValue (what the kernel body computes from its loaded blocks, at one entry),
  BlockCover and BlocksToArray (each grid point writes back a block of that one function, and the blocks cover
  the arrays), ReferenceValue (the plain array program computes the same function, operation by operation).
  The three frames are the generated ones; the idealization rewrote no operation, so that claim is trivial.
-/
import proofs.«166812_j25975962206620_2_alg».proof.Defs
import proofs.«166812_j25975962206620_2_alg».proof.Proof.Gen.Kernel
import proofs.«166812_j25975962206620_2_alg».proof.Proof.Gen.Kernel.Skeleton
import proofs.«166812_j25975962206620_2_alg».proof.Proof.Gen.Kernel.Launch
import proofs.«166812_j25975962206620_2_alg».proof.Proof.Gen.Kernel.Points
import proofs.«166812_j25975962206620_2_alg».proof.Proof.Gen.Kernel.Frame
import proofs.«166812_j25975962206620_2_alg».proof.Proof.Gen.KernelIdeal
import proofs.«166812_j25975962206620_2_alg».proof.Proof.Gen.KernelIdeal.Skeleton
import proofs.«166812_j25975962206620_2_alg».proof.Proof.Gen.KernelIdeal.Launch
import proofs.«166812_j25975962206620_2_alg».proof.Proof.Gen.KernelIdeal.Points
import proofs.«166812_j25975962206620_2_alg».proof.Proof.Gen.KernelIdeal.Frame
import proofs.«166812_j25975962206620_2_alg».proof.Proof.Gen.ReferenceIdeal
import proofs.«166812_j25975962206620_2_alg».proof.Proof.Gen.Pre_finite_inputs
import proofs.«166812_j25975962206620_2_alg».proof.Proof.Gen.KernelIdeal.Value
import proofs.«166812_j25975962206620_2_alg».proof.Proof.Gen.ReferenceIdeal.Run
import proofs.«166812_j25975962206620_2_alg».proof.Proof.Gen.ReferenceIdeal.Read
import proofs.«166812_j25975962206620_2_alg».proof.Proof.ReferenceValue
import proofs.«166812_j25975962206620_2_alg».proof.Proof.BlocksToArray
import Idealize.ShloMosaic.Adequacy
import Idealize.ShloMosaic.Init

noncomputable section

namespace Cert.Proof

open Idealize.ShloMosaic Idealize.SL.Sem Cert.Attention

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the plain array program: its run read back, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel. -/
theorem preserves : Cert.preserves_Kernel_KernelIdeal := trivial

/-- On the extended reals both programs end with the attended values and the weights of the same arguments: the
    kernel's two arrays are those functions of its arguments, block by block; the plain program's two results are the
    same functions, operation by operation; and the two memories agree on the arguments. -/
theorem algebraic : Cert.algebraic_KernelIdeal_ReferenceIdeal := by
  intro m ρ m' ρ' _ hagree
  refine ⟨_, _, Cert.Attention.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v19_eq, Cert.Attention.Reference.attended_eq,
      (hagree c).1, (hagree c).2.1, (hagree c).2.2.1, (hagree c).2.2.2]
  · rw [Cert.ReferenceIdeal.Read.val_main_v18_eq, Cert.Attention.Reference.weights_eq,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
